-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x64 .f32) (main_arg8 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x600000 32) (main_arg2 : FVec F S600000 .f32) (main_arg3 : FVec F S128x256 .f32) (main_arg4 : FVec F S256 .f32) (main_arg5 : FVec F S256x256 .f32) (main_arg6 : FVec F S256 .f32) (main_arg7 : FVec F S256x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S100000x256 : Shape := ⟨2, ![100000, 256]⟩
abbrev S5000x128 : Shape := ⟨2, ![5000, 128]⟩
abbrev S5000x256 : Shape := ⟨2, ![5000, 256]⟩
abbrev S700000x256 : Shape := ⟨2, ![700000, 256]⟩
abbrev S1x256 : Shape := ⟨2, ![1, 256]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 99
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S100000, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S700000, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000, .f32⟩
  | .hbm, ⟨50, _⟩ => ⟨S700000, .f32⟩
  | .hbm, ⟨51, _⟩ => ⟨S100000x256, .f32⟩
  | .hbm, ⟨52, _⟩ => ⟨S_, .i32⟩
  | .hbm, ⟨53, _⟩ => ⟨S700000, .i32⟩
  | .hbm, ⟨54, _⟩ => ⟨S700000, .i1⟩
  | .hbm, ⟨55, _⟩ => ⟨S_, .i32⟩
  | .hbm, ⟨56, _⟩ => ⟨S700000, .i32⟩
  | .hbm, ⟨57, _⟩ => ⟨S700000, .i32⟩
  | .hbm, ⟨58, _⟩ => ⟨S700000, .i32⟩
  | .hbm, ⟨59, _⟩ => ⟨S700000x1, .i32⟩
  | .hbm, ⟨60, _⟩ => ⟨S700000x256, .f32⟩
  | .hbm, ⟨61, _⟩ => ⟨S700000x1, .f32⟩
  | .hbm, ⟨62, _⟩ => ⟨S700000x256, .f32⟩
  | .hbm, ⟨63, _⟩ => ⟨S700000x256, .f32⟩
  | .hbm, ⟨64, _⟩ => ⟨S_, .f32⟩
  | .hbm, ⟨65, _⟩ => ⟨S100000x256, .f32⟩
  | .hbm, ⟨66, _⟩ => ⟨S700000x1, .i32⟩
  | .hbm, ⟨67, _⟩ => ⟨S100000x256, .f32⟩
  | .hbm, ⟨68, _⟩ => ⟨S1x256, .f32⟩
  | .hbm, ⟨69, _⟩ => ⟨S100000x256, .f32⟩
  | .hbm, ⟨70, _⟩ => ⟨S100000x256, .f32⟩
  | .hbm, ⟨71, _⟩ => ⟨S_, .f32⟩
  | .hbm, ⟨72, _⟩ => ⟨S100000x256, .f32⟩
  | .hbm, ⟨73, _⟩ => ⟨S100000x256, .f32⟩
  | .hbm, ⟨74, _⟩ => ⟨S100000x256, .f32⟩
  | .hbm, ⟨75, _⟩ => ⟨S_, .i32⟩
  | .hbm, ⟨76, _⟩ => ⟨S700000, .i32⟩
  | .hbm, ⟨77, _⟩ => ⟨S700000, .i1⟩
  | .hbm, ⟨78, _⟩ => ⟨S_, .i32⟩
  | .hbm, ⟨79, _⟩ => ⟨S700000, .i32⟩
  | .hbm, ⟨80, _⟩ => ⟨S700000, .i32⟩
  | .hbm, ⟨81, _⟩ => ⟨S700000, .i32⟩
  | .hbm, ⟨82, _⟩ => ⟨S700000x1, .i32⟩
  | .hbm, ⟨83, _⟩ => ⟨S700000x256, .f32⟩
  | .hbm, ⟨84, _⟩ => ⟨S700000x1, .f32⟩
  | .hbm, ⟨85, _⟩ => ⟨S700000x256, .f32⟩
  | .hbm, ⟨86, _⟩ => ⟨S700000x256, .f32⟩
  | .hbm, ⟨87, _⟩ => ⟨S_, .f32⟩
  | .hbm, ⟨88, _⟩ => ⟨S100000x256, .f32⟩
  | .hbm, ⟨89, _⟩ => ⟨S700000x1, .i32⟩
  | .hbm, ⟨90, _⟩ => ⟨S100000x256, .f32⟩
  | .hbm, ⟨91, _⟩ => ⟨S1x256, .f32⟩
  | .hbm, ⟨92, _⟩ => ⟨S100000x256, .f32⟩
  | .hbm, ⟨93, _⟩ => ⟨S100000x256, .f32⟩
  | .hbm, ⟨94, _⟩ => ⟨S_, .f32⟩
  | .hbm, ⟨95, _⟩ => ⟨S100000x256, .f32⟩
  | .hbm, ⟨96, _⟩ => ⟨S100000x256, .f32⟩
  | .hbm, ⟨97, _⟩ => ⟨S1x64, .f32⟩
  | .hbm, ⟨98, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x256_S5000x256_1_0_0_1_n_n_wf : DotDims.WF S5000x128 S128x256 S5000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S100000x256 : Shape := ⟨2, ![100000, 256]⟩
abbrev S700000x256 : Shape := ⟨2, ![700000, 256]⟩
abbrev S1x256 : Shape := ⟨2, ![1, 256]⟩
abbrev S100000x64 : Shape := ⟨2, ![100000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S128x256, .f32⟩
  | 4 => ⟨S256, .f32⟩
  | 5 => ⟨S256x256, .f32⟩
  | 6 => ⟨S256, .f32⟩
  | 7 => ⟨S256x64, .f32⟩
  | 8 => ⟨S64, .f32⟩
  | 9 => ⟨S100000, .i32⟩
  | 10 => ⟨S1x600000, .i32⟩
  | 11 => ⟨S600000, .i32⟩
  | 12 => ⟨S700000, .i32⟩
  | 13 => ⟨S1x600000, .i32⟩
  | 14 => ⟨S600000, .i32⟩
  | 15 => ⟨S700000, .i32⟩
  | 16 => ⟨S_, .f32⟩
  | 17 => ⟨S100000, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S100000x256, .f32⟩
  | 52 => ⟨S_, .i32⟩
  | 53 => ⟨S700000, .i32⟩
  | 54 => ⟨S700000, .i1⟩
  | 55 => ⟨S_, .i32⟩
  | 56 => ⟨S700000, .i32⟩
  | 57 => ⟨S700000, .i32⟩
  | 58 => ⟨S700000, .i32⟩
  | 59 => ⟨S700000x1, .i32⟩
  | 60 => ⟨S700000x256, .f32⟩
  | 61 => ⟨S700000x1, .f32⟩
  | 62 => ⟨S700000x256, .f32⟩
  | 63 => ⟨S700000x256, .f32⟩
  | 64 => ⟨S_, .f32⟩
  | 65 => ⟨S100000x256, .f32⟩
  | 66 => ⟨S700000x1, .i32⟩
  | 67 => ⟨S100000x256, .f32⟩
  | 68 => ⟨S1x256, .f32⟩
  | 69 => ⟨S100000x256, .f32⟩
  | 70 => ⟨S100000x256, .f32⟩
  | 71 => ⟨S_, .f32⟩
  | 72 => ⟨S100000x256, .f32⟩
  | 73 => ⟨S100000x256, .f32⟩
  | 74 => ⟨S_, .f32⟩
  | 75 => ⟨S100000, .f32⟩
  | 76 => ⟨S700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000, .f32⟩
  | 95 => ⟨S700000, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000, .f32⟩
  | 105 => ⟨S700000, .f32⟩
  | 106 => ⟨S100000x256, .f32⟩
  | 107 => ⟨S_, .i32⟩
  | 108 => ⟨S700000, .i32⟩
  | 109 => ⟨S700000, .i1⟩
  | 110 => ⟨S_, .i32⟩
  | 111 => ⟨S700000, .i32⟩
  | 112 => ⟨S700000, .i32⟩
  | 113 => ⟨S700000, .i32⟩
  | 114 => ⟨S700000x1, .i32⟩
  | 115 => ⟨S700000x256, .f32⟩
  | 116 => ⟨S700000x1, .f32⟩
  | 117 => ⟨S700000x256, .f32⟩
  | 118 => ⟨S700000x256, .f32⟩
  | 119 => ⟨S_, .f32⟩
  | 120 => ⟨S100000x256, .f32⟩
  | 121 => ⟨S700000x1, .i32⟩
  | 122 => ⟨S100000x256, .f32⟩
  | 123 => ⟨S1x256, .f32⟩
  | 124 => ⟨S100000x256, .f32⟩
  | 125 => ⟨S100000x256, .f32⟩
  | 126 => ⟨S_, .f32⟩
  | 127 => ⟨S100000x256, .f32⟩
  | _ => ⟨S100000x128, .f32⟩

abbrev hbmTy0_1 (i : Nat) : BufTy := match i % 128 with
  | 0 => ⟨S100000x256, .f32⟩
  | 1 => ⟨S100000x64, .f32⟩
  | 2 => ⟨S1x64, .f32⟩
  | 3 => ⟨S100000x64, .f32⟩
  | 4 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x256_0_1 : S700000x1.BroadcastsInDim S700000x256 (![0, 1] : Fin 2 → Fin S700000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x256_S100000x256_1_0_0_1_n_n_wf : DotDims.WF S100000x128 S128x256 S100000x256 [1] [0] [0] [1] [] []
  gather_S100000x256_S700000x1_S700000x256_1_0_n_n_0_1_1256_wf : GatherDims.WF S100000x256 S700000x1 S700000x256 [1] [0] [] [0] [] 1 ![1, 256]
  scatter_S100000x256_S700000x1_S700000x256_1_0_0_1_wf : ScatterDims.WF S100000x256 S700000x1 S700000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S700000x1_S700000x256_1_0_n_n_0_1_1256 : GatherDims S100000x256 S700000x1 S700000x256 where
  offsetDims := [1]
  collapsedSliceDims := [0]
  operandBatchingDims := []
  startIndicesBatchingDims := []
  startIndexMap := [0]
  indexVectorDim := 1
  sliceSizes := ![1, 256]
  wf := gather_S100000x256_S700000x1_S700000x256_1_0_n_n_0_1_1256_wf
def scatter_S100000x256_S700000x1_S700000x256_1_0_0_1 : ScatterDims S100000x256 S700000x1 S700000x256 where
  updateWindowDims := [1]
  insertedWindowDims := [0]
  scatterDimsToOperandDims := [0]
  indexVectorDim := 1
  wf := scatter_S100000x256_S700000x1_S700000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The kernel program's run with its result named.

  @main is eleven segments: stretches of host operations and three matrix-product calls. The contents of the TensorCore's
  buffers at each segment boundary are a fold through the program from the launch memory: a host stretch rewrites the
  buffers its operations write; a call leaves its result array at what its write-backs leave and every other buffer as it
  found it. Every weakly fair execution terminates in a state whose unscoped buffers hold the last boundary's contents; read
  at the result buffer this names the result, and read at the argument buffers it says they are unchanged.
-/
import proofs.«169531_j33397665693788_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the nine argument
    arrays as launched. -/
theorem run : θ_run defs (onTc (τ := τ) (main (F := F))) ⟨m, fun _ => 0, ρ⟩ (fun r => ∀ c : Dev nD,
      r.2.mem ((c.tc : Thread nD τ).loc main_v69) = W11 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v69 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Whole

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Product.lean ====
/-
  The product of two matrices on the extended reals, entry by entry.
-/
import Idealize.ShloMosaic.PureOps.Ideal
import Idealize.ShloMosaic.Lib.ValueIdx

noncomputable section

namespace Cert.KernelIdeal.Dense

open Idealize.ShloMosaic Idealize.ShloMosaic.ValueIdx

/-- The product of an [M, K] array and a [K, N] array on the extended reals: entry (i, j) is Σ_k a(i, k) · b(k, j). -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- A rectangle at the origin of a rank-2 buffer has zero offsets. -/
theorem zero_offsets : (![0, 0] : Fin 2 → Nat) = fun _ => 0 := funext fun a => by fin_cases a <;> rfl

end Cert.KernelIdeal.Dense

end
-- ==== Proof.Dense0.lean ====
/-
  The first product, x · W1, as the kernel computes it.

  The call runs over 20 grid points. Point t reads rows 5000·t … 5000·t + 4999 of the [100000, 128] left operand and the
  whole [128, 256] right operand, rounds both to bf16 (the identity on the extended reals), multiplies them into a zero
  accumulator and writes rows 5000·t … 5000·t + 4999 of the [100000, 256] result. An entry (r, q) of a block's product is
  the sum over k of left(r, k) · right(k, q), and row r of block t is row 5000·t + r of the array, so every block written
  back is the same block of ONE array, the product of the two whole operands: entry (i, j) = Σ_k a(i, k) · b(k, j). The
  20 row blocks cover the result, so that array is what the call leaves.
-/
import proofs.«169531_j33397665693788_1_alg».proof.Proof.Gen.KernelIdeal.Frame
import proofs.«169531_j33397665693788_1_alg».proof.Proof.LibMatmulRows
import proofs.«169531_j33397665693788_1_alg».proof.Proof.Product
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The free row axis of the block product's left operand is the result's row. -/
theorem dot0_lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The free column axis of the block product's right operand is the result's column. -/
theorem dot0_rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- One block's arithmetic at entry y: the sum over k of left(y₀, k) · right(k, y₁); the roundings to bf16 change nothing. -/
theorem block0_apply (x0 : Vec Ideal S5000x128 .f32) (x1 : Vec Ideal S128x256 .f32) (y : S5000x256.Idx) :
    k0_pay1 (F := Ideal) x0 x1 y = ∑ k : Fin 128, x0 (ix2 (y 0) k) * x1 (ix2 k (y 1)) := by
  unfold k0_pay1
  exact MatmulRows.matmul_zero_apply dot_S5000x128_S128x256_S5000x256_1_0_0_1_n_n none rfl rfl rfl rfl
    dot0_lhs_row dot0_rhs_col x0 x1 y

/-- Where each window's block sits at point t: the left operand's and the result's blocks are row block t, the right
    operand's is the whole array. -/
theorem blocks0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

variable (V : (c : Dev nD) → (b : Ref sig .tc) → Buf (Elt Ideal) ((c : Thread nD τ).loc b))

/-- What point t writes back is block t of ONE array: the product of the two whole operands. -/
theorem flushed0 (c : Dev nD) (t : Fin cfg0.N) :
    (dat0 (F := Ideal) V c).flushed 2 t
      = ((cfg0.win 2).blk t).view.read (Elt Ideal) (mm (M := 100000) (K := 128) (N := 256) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, e5⟩ := blocks0 t
  funext y
  show k0_pay1 (iblk0 V c 0 t) (iblk0 V c 1 t) y
    = mm (M := 100000) (K := 128) (N := 256) (V c main_arg0) (V c main_arg3) (((cfg0.win 2).blk t).view.emb y)
  refine (block0_apply _ _ y).trans ?_
  unfold mm
  have hl : ∀ k : Fin 128, iblk0 V c 0 t (ix2 (y 0) k) = V c main_arg0 (ix2 ((((cfg0.win 2).blk t).view.emb y) 0) k) := by
    intro k
    show V c main_arg0 (((cfg0.win 0).blk t).view.emb (ix2 (y 0) k)) = _
    refine congrArg (V c main_arg0) (funext fun a => Fin.ext ?_)
    match a with
    | ⟨0, _⟩ => show win0_0.index t (0 : Fin 2) * 5000 + 1 * (y 0).val = win0_2.index t (0 : Fin 2) * 5000 + 1 * (y 0).val; rw [e0]
    | ⟨1, _⟩ => show win0_0.index t (1 : Fin 2) * 128 + 1 * k.val = k.val; rw [e1]; omega
  have hr : ∀ k : Fin 128, iblk0 V c 1 t (ix2 k (y 1)) = V c main_arg3 (ix2 k ((((cfg0.win 2).blk t).view.emb y) 1)) := by
    intro k
    show V c main_arg3 (((cfg0.win 1).blk t).view.emb (ix2 k (y 1))) = _
    refine congrArg (V c main_arg3) (funext fun a => Fin.ext ?_)
    match a with
    | ⟨0, _⟩ => show win0_1.index t (0 : Fin 2) * 128 + 1 * k.val = k.val; rw [e2]; omega
    | ⟨1, _⟩ => show win0_1.index t (1 : Fin 2) * 256 + 1 * (y 1).val = win0_2.index t (1 : Fin 2) * 256 + 1 * (y 1).val; rw [e3, e4]
  refine Finset.sum_congr rfl fun k _ => ?_
  rw [hl k, hr k]

/-- An index of the result lies in point t's block iff, on each axis, it is within the block's range. -/
theorem mem_block0 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v32).slice (win0_2.rect t)).set ↔ _
  rw [View.set_slice_whole, Rect.mem_set_unit]
  exact Iff.rfl

/-- The 20 row blocks cover the result: row r lies in block r / 5000. -/
theorem cover0 (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  let t : Fin cfg0.N := ⟨(i 0).val / 5000, by rw [hN]; omega⟩
  obtain ⟨e0, e1, e2, e3, e4, e5⟩ := blocks0 t
  refine ⟨t, flush0_2 t, ?_⟩
  rw [mem_block0]
  intro a
  have ht : t.val = (i 0).val / 5000 := rfl
  match a with
  | ⟨0, _⟩ =>
    show win0_2.index t (0 : Fin 2) * 5000 ≤ (i 0).val ∧ (i 0).val < win0_2.index t (0 : Fin 2) * 5000 + 5000
    rw [e5, ht]; omega
  | ⟨1, _⟩ =>
    show win0_2.index t (1 : Fin 2) * 256 ≤ (i 1).val ∧ (i 1).val < win0_2.index t (1 : Fin 2) * 256 + 256
    rw [e4]; omega

/-- The result array after the call, from the operands as the call found them. -/
theorem product0 (c : Dev nD) :
    (dat0 (F := Ideal) V c).arrAt 2 cfg0.N = (mm (M := 100000) (K := 128) (N := 256) (V c main_arg0) (V c main_arg3)) :=
  (dat0 (F := Ideal) V c).arrAt_eq_of_cover 2 _ (fun t _ => flushed0 V c t) cover0

end Cert.KernelIdeal.Dense

end
-- ==== Proof.Dense1.lean ====
/-
  The second product, h · W2, as the kernel computes it.

  The call runs over 20 grid points. Point t reads rows 5000·t … 5000·t + 4999 of the [100000, 256] left operand and the
  whole [256, 256] right operand, rounds both to bf16 (the identity on the extended reals), multiplies them into a zero
  accumulator and writes rows 5000·t … 5000·t + 4999 of the [100000, 256] result. An entry (r, q) of a block's product is
  the sum over k of left(r, k) · right(k, q), and row r of block t is row 5000·t + r of the array, so every block written
  back is the same block of ONE array, the product of the two whole operands: entry (i, j) = Σ_k a(i, k) · b(k, j). The
  20 row blocks cover the result, so that array is what the call leaves.
-/
import proofs.«169531_j33397665693788_1_alg».proof.Proof.Gen.KernelIdeal.Frame
import proofs.«169531_j33397665693788_1_alg».proof.Proof.LibMatmulRows
import proofs.«169531_j33397665693788_1_alg».proof.Proof.Product
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The free row axis of the block product's left operand is the result's row. -/
theorem dot1_lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The free column axis of the block product's right operand is the result's column. -/
theorem dot1_rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- One block's arithmetic at entry y: the sum over k of left(y₀, k) · right(k, y₁); the roundings to bf16 change nothing. -/
theorem block1_apply (x0 : Vec Ideal S5000x256 .f32) (x1 : Vec Ideal S256x256 .f32) (y : S5000x256.Idx) :
    k1_pay1 (F := Ideal) x0 x1 y = ∑ k : Fin 256, x0 (ix2 (y 0) k) * x1 (ix2 k (y 1)) := by
  unfold k1_pay1
  rw [shapeCast_self]
  exact MatmulRows.matmul_zero_apply dot_S5000x256_S256x256_S5000x256_1_0_0_1_n_n none rfl rfl rfl rfl
    dot1_lhs_row dot1_rhs_col x0 x1 y

/-- Where each window's block sits at point t: the left operand's and the result's blocks are row block t, the right
    operand's is the whole array. -/
theorem blocks1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

variable (V : (c : Dev nD) → (b : Ref sig .tc) → Buf (Elt Ideal) ((c : Thread nD τ).loc b))

/-- What point t writes back is block t of ONE array: the product of the two whole operands. -/
theorem flushed1 (c : Dev nD) (t : Fin cfg1.N) :
    (dat1 (F := Ideal) V c).flushed 2 t
      = ((cfg1.win 2).blk t).view.read (Elt Ideal) (mm (M := 100000) (K := 256) (N := 256) (V c main_v49) (V c main_arg5)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  obtain ⟨e0, e1, e2, e3, e4, e5⟩ := blocks1 t
  funext y
  show k1_pay1 (iblk1 V c 0 t) (iblk1 V c 1 t) y
    = mm (M := 100000) (K := 256) (N := 256) (V c main_v49) (V c main_arg5) (((cfg1.win 2).blk t).view.emb y)
  refine (block1_apply _ _ y).trans ?_
  unfold mm
  have hl : ∀ k : Fin 256, iblk1 V c 0 t (ix2 (y 0) k) = V c main_v49 (ix2 ((((cfg1.win 2).blk t).view.emb y) 0) k) := by
    intro k
    show V c main_v49 (((cfg1.win 0).blk t).view.emb (ix2 (y 0) k)) = _
    refine congrArg (V c main_v49) (funext fun a => Fin.ext ?_)
    match a with
    | ⟨0, _⟩ => show win1_0.index t (0 : Fin 2) * 5000 + 1 * (y 0).val = win1_2.index t (0 : Fin 2) * 5000 + 1 * (y 0).val; rw [e0]
    | ⟨1, _⟩ => show win1_0.index t (1 : Fin 2) * 256 + 1 * k.val = k.val; rw [e1]; omega
  have hr : ∀ k : Fin 256, iblk1 V c 1 t (ix2 k (y 1)) = V c main_arg5 (ix2 k ((((cfg1.win 2).blk t).view.emb y) 1)) := by
    intro k
    show V c main_arg5 (((cfg1.win 1).blk t).view.emb (ix2 k (y 1))) = _
    refine congrArg (V c main_arg5) (funext fun a => Fin.ext ?_)
    match a with
    | ⟨0, _⟩ => show win1_1.index t (0 : Fin 2) * 256 + 1 * k.val = k.val; rw [e2]; omega
    | ⟨1, _⟩ => show win1_1.index t (1 : Fin 2) * 256 + 1 * (y 1).val = win1_2.index t (1 : Fin 2) * 256 + 1 * (y 1).val; rw [e3, e4]
  refine Finset.sum_congr rfl fun k _ => ?_
  rw [hl k, hr k]

/-- An index of the result lies in point t's block iff, on each axis, it is within the block's range. -/
theorem mem_block1 (t : Fin cfg1.N) (i : S100000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v50).slice (win1_2.rect t)).set ↔ _
  rw [View.set_slice_whole, Rect.mem_set_unit]
  exact Iff.rfl

/-- The 20 row blocks cover the result: row r lies in block r / 5000. -/
theorem cover1 (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 20 := N_1
  let t : Fin cfg1.N := ⟨(i 0).val / 5000, by rw [hN]; omega⟩
  obtain ⟨e0, e1, e2, e3, e4, e5⟩ := blocks1 t
  refine ⟨t, flush1_2 t, ?_⟩
  rw [mem_block1]
  intro a
  have ht : t.val = (i 0).val / 5000 := rfl
  match a with
  | ⟨0, _⟩ =>
    show win1_2.index t (0 : Fin 2) * 5000 ≤ (i 0).val ∧ (i 0).val < win1_2.index t (0 : Fin 2) * 5000 + 5000
    rw [e5, ht]; omega
  | ⟨1, _⟩ =>
    show win1_2.index t (1 : Fin 2) * 256 ≤ (i 1).val ∧ (i 1).val < win1_2.index t (1 : Fin 2) * 256 + 256
    rw [e4]; omega

/-- The result array after the call, from the operands as the call found them. -/
theorem product1 (c : Dev nD) :
    (dat1 (F := Ideal) V c).arrAt 2 cfg1.N = (mm (M := 100000) (K := 256) (N := 256) (V c main_v49) (V c main_arg5)) :=
  (dat1 (F := Ideal) V c).arrAt_eq_of_cover 2 _ (fun t _ => flushed1 V c t) cover1

end Cert.KernelIdeal.Dense

end
-- ==== Proof.Dense2.lean ====
/-
  The third product with its bias, h · Wfc + bfc, as the kernel computes it.

  The call runs over 20 grid points. Point t reads rows 5000·t … 5000·t + 4999 of the [100000, 256] left operand and the
  whole [256, 64] right operand, rounds both to bf16 (the identity on the extended reals), multiplies them into a zero
  accumulator and writes rows 5000·t … 5000·t + 4999 of the [100000, 64] result. An entry (r, q) of a block's product is
  the sum over k of left(r, k) · right(k, q), and row r of block t is row 5000·t + r of the array, so every block written
  back is the same block of ONE array, the product of the two whole operands: entry (i, j) = Σ_k a(i, k) · b(k, j). The
  20 row blocks cover the result, so that array is what the call leaves.
  The third operand is the bias as a 1 × 64 row, read whole at every point and added to every row of the block's product,
  so the array carries the bias along its columns.
-/
import proofs.«169531_j33397665693788_1_alg».proof.Proof.Gen.KernelIdeal.Frame
import proofs.«169531_j33397665693788_1_alg».proof.Proof.LibMatmulRows
import proofs.«169531_j33397665693788_1_alg».proof.Proof.Product
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The free row axis of the block product's left operand is the result's row. -/
theorem dot2_lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl

/-- The free column axis of the block product's right operand is the result's column. -/
theorem dot2_rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- One block's arithmetic at entry y: the sum over k of left(y₀, k) · right(k, y₁), plus the bias row at column y₁; the roundings to bf16 change nothing. -/
theorem block2_apply (x0 : Vec Ideal S5000x256 .f32) (x1 : Vec Ideal S256x64 .f32) (x2 : Vec Ideal S1x64 .f32) (y : S5000x64.Idx) :
    k2_pay1 (F := Ideal) x0 x1 x2 y = (∑ k : Fin 256, x0 (ix2 (y 0) k) * x1 (ix2 k (y 1))) + x2 (ix2 (0 : Fin 1) (y 1)) := by
  unfold k2_pay1
  rw [shapeCast_self, shapeCast_self]
  refine (addf_apply _ _ y).trans ?_
  refine congrArg₂ (· + ·) ?_ ?_
  · exact MatmulRows.matmul_zero_apply dot_S5000x256_S256x64_S5000x64_1_0_0_1_n_n none rfl rfl rfl rfl
      dot2_lhs_row dot2_rhs_col x0 x1 y
  · exact (congrArg _ (eq_ix2 y)).trans (broadcastTo_1b_ab_apply x2 broadcasts_S1x64_S5000x64 (y 0) (y 1))

/-- Where each window's block sits at point t: the left operand's and the result's blocks are row block t, the right
    operand's and the bias row's are the whole array. -/
theorem blocks2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_3.index t (1 : Fin 2) = 0 ∧ win2_3.index t (0 : Fin 2) = t.val
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of ONE array: the product of the two whole operands plus the bias along the columns. -/
theorem flushed2 (c : Dev nD) (t : Fin cfg2.N) :
    (dat2 (F := Ideal) V c).flushed 3 t
      = ((cfg2.win 3).blk t).view.read (Elt Ideal) (fun i => mm (M := 100000) (K := 256) (N := 64) (V c main_v67) (V c main_arg7) i + V c main_v68 (ix2 (0 : Fin 1) (i 1))) := by
  show (cfg2.win 3).cut (grid2.coords t) ((dat2 V c).after 3 t) = _
  rw [after2_3]
  unfold out2_3
  rw [View.canon_unit_zero zero_offsets]
  simp only [View.ld_unit_zero (S := S5000x256) zero_offsets, View.ld_unit_zero (S := S256x64) zero_offsets, View.ld_unit_zero (S := S1x64) zero_offsets]
  obtain ⟨e0, e1, e2, e3, e4, e5, e6, e7⟩ := blocks2 t
  funext y
  show k2_pay1 (iblk2 V c 0 t) (iblk2 V c 1 t) (iblk2 V c 2 t) y
    = mm (M := 100000) (K := 256) (N := 64) (V c main_v67) (V c main_arg7) (((cfg2.win 3).blk t).view.emb y) + V c main_v68 (ix2 (0 : Fin 1) ((((cfg2.win 3).blk t).view.emb y) 1))
  refine (block2_apply _ _ _ y).trans ?_
  unfold mm
  have hl : ∀ k : Fin 256, iblk2 V c 0 t (ix2 (y 0) k) = V c main_v67 (ix2 ((((cfg2.win 3).blk t).view.emb y) 0) k) := by
    intro k
    show V c main_v67 (((cfg2.win 0).blk t).view.emb (ix2 (y 0) k)) = _
    refine congrArg (V c main_v67) (funext fun a => Fin.ext ?_)
    match a with
    | ⟨0, _⟩ => show win2_0.index t (0 : Fin 2) * 5000 + 1 * (y 0).val = win2_3.index t (0 : Fin 2) * 5000 + 1 * (y 0).val; rw [e0]
    | ⟨1, _⟩ => show win2_0.index t (1 : Fin 2) * 256 + 1 * k.val = k.val; rw [e1]; omega
  have hr : ∀ k : Fin 256, iblk2 V c 1 t (ix2 k (y 1)) = V c main_arg7 (ix2 k ((((cfg2.win 3).blk t).view.emb y) 1)) := by
    intro k
    show V c main_arg7 (((cfg2.win 1).blk t).view.emb (ix2 k (y 1))) = _
    refine congrArg (V c main_arg7) (funext fun a => Fin.ext ?_)
    match a with
    | ⟨0, _⟩ => show win2_1.index t (0 : Fin 2) * 256 + 1 * k.val = k.val; rw [e2]; omega
    | ⟨1, _⟩ => show win2_1.index t (1 : Fin 2) * 64 + 1 * (y 1).val = win2_3.index t (1 : Fin 2) * 64 + 1 * (y 1).val; rw [e3, e4]
  have hb : iblk2 V c 2 t (ix2 (0 : Fin 1) (y 1)) = V c main_v68 (ix2 (0 : Fin 1) ((((cfg2.win 3).blk t).view.emb y) 1)) := by
    show V c main_v68 (((cfg2.win 2).blk t).view.emb (ix2 (0 : Fin 1) (y 1))) = _
    refine congrArg (V c main_v68) (funext fun a => Fin.ext ?_)
    match a with
    | ⟨0, _⟩ => show win2_2.index t (0 : Fin 2) * 1 + 1 * 0 = 0; rw [e6]
    | ⟨1, _⟩ => show win2_2.index t (1 : Fin 2) * 64 + 1 * (y 1).val = win2_3.index t (1 : Fin 2) * 64 + 1 * (y 1).val; rw [e7, e4]
  refine congrArg₂ (· + ·) (Finset.sum_congr rfl fun k _ => ?_) hb
  rw [hl k, hr k]

/-- An index of the result lies in point t's block iff, on each axis, it is within the block's range. -/
theorem mem_block2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v69).slice (win2_3.rect t)).set ↔ _
  rw [View.set_slice_whole, Rect.mem_set_unit]
  exact Iff.rfl

/-- The 20 row blocks cover the result: row r lies in block r / 5000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5, e6, e7⟩ := blocks2 t
  refine ⟨t, flush2_3 t, ?_⟩
  rw [mem_block2]
  intro a
  have ht : t.val = (i 0).val / 5000 := rfl
  match a with
  | ⟨0, _⟩ =>
    show win2_3.index t (0 : Fin 2) * 5000 ≤ (i 0).val ∧ (i 0).val < win2_3.index t (0 : Fin 2) * 5000 + 5000
    rw [e5, ht]; omega
  | ⟨1, _⟩ =>
    show win2_3.index t (1 : Fin 2) * 64 ≤ (i 1).val ∧ (i 1).val < win2_3.index t (1 : Fin 2) * 64 + 64
    rw [e4]; omega

/-- The result array after the call, from the operands as the call found them. -/
theorem product2 (c : Dev nD) :
    (dat2 (F := Ideal) V c).arrAt 3 cfg2.N = (fun i => mm (M := 100000) (K := 256) (N := 64) (V c main_v67) (V c main_arg7) i + V c main_v68 (ix2 (0 : Fin 1) (i 1))) :=
  (dat2 (F := Ideal) V c).arrAt_eq_of_cover 3 _ (fun t _ => flushed2 V c t) cover2

end Cert.KernelIdeal.Dense

end
-- ==== Proof.Spec.lean ====
/-
  The network both programs compute, as one function of the nine argument arrays.

  Nodes 0 … 99999, 600000 weighted edges (source row, destination row of the 2 × 600000 index array) and one self loop of
  weight 1 per node, 700000 entries in all. With deg(n) the sum of the weights of the entries whose destination is n and
  d(n) = deg(n)^(-1/2) where deg(n) > 0, else 0, entry e carries the coefficient d(source e) · weight e · d(destination e).
  A layer maps node features h to relu(Σ over entries e with destination n of h(source e, ·) · coefficient e, plus bias).
  The network is a product with W1, a layer, a product with W2, a layer, a product with Wfc and a final bias.

  Every piece below is spelt with the host operations the printed reference applies (scatter-add, gather with negative
  indices wrapped by 100000, concatenate, broadcast), so the reference's result is this function by unfolding, and the
  kernel's host steps between its three matrix-product calls are the same pieces.
-/
import proofs.«169531_j33397665693788_1_alg».proof.ReferenceIdeal
import proofs.«169531_j33397665693788_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- An f32 array of the given shape, at a float instance `F` (at the ideal instance: extended reals). -/
abbrev FArr (F : FTy → Type) (s : Shape) : Type := FVec F s .f32
/-- An i32 array of the given shape. -/
abbrev IArr (s : Shape) : Type := IVec s 32

/-- Row `r` (0: sources, 1: destinations) of the edge index array followed by the node numbers 0 … 99999 (the self loops). -/
def sources (ei : IArr S2x600000) : IArr S700000 :=
  concatenate S700000 0 [⟨S600000, (shapeCast _ (extractStridedSlice S1x600000 ![0, 0] ei slices_S2x600000_S1x600000_0_0) shapeCasts_S1x600000_S600000)⟩, ⟨S100000, (iotaInDim S100000 32 0)⟩] concatenates_S600000_S100000_S700000_d0

def dests (ei : IArr S2x600000) : IArr S700000 :=
  concatenate S700000 0 [⟨S600000, (shapeCast _ (extractStridedSlice S1x600000 ![1, 0] ei slices_S2x600000_S1x600000_1_0) shapeCasts_S1x600000_S600000)⟩, ⟨S100000, (iotaInDim S100000 32 0)⟩] concatenates_S600000_S100000_S700000_d0

/-- The edge weights followed by weight 1 for each self loop. -/
def weights (ew : FArr F S600000) : FArr F S700000 :=
  concatenate S700000 0 [⟨S600000, ew⟩, ⟨S100000, (broadcastInDim S100000 ![] bcast_S_S100000 (constant (F := F) S_ .f32 0x3F800000#32))⟩] concatenates_S600000_S100000_S700000_d0

/-- deg(n): the weights summed into their destinations. -/
def degree (ei : IArr S2x600000) (ew : FArr F S600000) : FArr F S100000 :=
  Host.scatterAdd (F := F) scatter_S100000_S700000x1_S700000_n_0_0_1 (broadcastInDim S100000 ![] bcast_S_S100000 (constant (F := F) S_ .f32 0x00000000#32)) (broadcastInDim S700000x1 ![0] bcast_S700000_S700000x1_0 (dests ei)) (weights ew)

/-- d(n) = deg(n)^(-1/2) where deg(n) > 0, else 0. -/
def invSqrtDegree (ei : IArr S2x600000) (ew : FArr F S600000) : FArr F S100000 :=
  select (cmpf (F := F) .ogt (degree ei ew) (broadcastInDim S100000 ![] bcast_S_S100000 (constant (F := F) S_ .f32 0x00000000#32))) (Host.rsqrt (F := F) (degree ei ew)) (broadcastInDim S100000 ![] bcast_S_S100000 (id (constant (F := F) S_ .f32 0x00000000#32)))

/-- A node number read the way array indexing reads it: a negative one counts from the end. -/
def wrapIndex (v : IArr S700000) : IArr S700000 :=
  select (cmpi .slt v (broadcastInDim S700000 ![] bcast_S_S700000 (constantI S_ 32 0#32))) (addi v (broadcastInDim S700000 ![] bcast_S_S700000 (constantI S_ 32 100000#32))) v

/-- A per-node quantity read at each entry's node. -/
def atNodes (d : FArr F S100000) (v : IArr S700000) : FArr F S700000 :=
  Host.gather gather_S100000_S700000x1_S700000_n_0_n_n_0_1_1 d (broadcastInDim S700000x1 ![0] bcast_S700000_S700000x1_0 (wrapIndex v))

/-- The coefficient of each entry: d(source) · weight · d(destination). -/
def coefficients (ei : IArr S2x600000) (ew : FArr F S600000) : FArr F S700000 :=
  mulf (F := F) (mulf (F := F) (atNodes (invSqrtDegree ei ew) (sources ei)) (weights ew)) (atNodes (invSqrtDegree ei ew) (dests ei))

/-- One layer after its product: gather the source rows, scale each by its entry's coefficient, sum into the destination
    rows, add the bias, and clamp below at zero. -/
def layer (h : FArr F S100000x256) (src dst : IArr S700000) (coef : FArr F S700000) (b : FArr F S256) : FArr F S100000x256 :=
  maximumf (F := F) (addf (F := F) (Host.scatterAdd (F := F) scatter_S100000x256_S700000x1_S700000x256_1_0_0_1 (broadcastInDim S100000x256 ![] bcast_S_S100000x256 (constant (F := F) S_ .f32 0x00000000#32)) (broadcastInDim S700000x1 ![0] bcast_S700000_S700000x1_0 dst) (mulf (F := F) (Host.gather gather_S100000x256_S700000x1_S700000x256_1_0_n_n_0_1_1256 h (broadcastInDim S700000x1 ![0] bcast_S700000_S700000x1_0 (wrapIndex src))) (broadcastInDim S700000x256 ![0, 1] bcast_S700000x1_S700000x256_0_1 (broadcastInDim S700000x1 ![0] bcast_S700000_S700000x1_0 coef)))) (broadcastInDim S100000x256 ![0, 1] bcast_S1x256_S100000x256_0_1 (broadcastInDim S1x256 ![1] bcast_S256_S1x256_1 b))) (broadcastInDim S100000x256 ![] bcast_S_S100000x256 (constant (F := F) S_ .f32 0x00000000#32))

/-- The three products, as the host computes them. -/
def product1 (x : FArr F S100000x128) (w : FArr F S128x256) : FArr F S100000x256 :=
  Host.dotGeneral (F := F) dot_S100000x128_S128x256_S100000x256_1_0_0_1_n_n none x w
def product2 (x : FArr F S100000x256) (w : FArr F S256x256) : FArr F S100000x256 :=
  Host.dotGeneral (F := F) dot_S100000x256_S256x256_S100000x256_1_0_0_1_n_n none x w
def product3 (x : FArr F S100000x256) (w : FArr F S256x64) : FArr F S100000x64 :=
  Host.dotGeneral (F := F) dot_S100000x256_S256x64_S100000x64_1_0_0_1_n_n none x w

/-- The last product plus its bias along the columns. -/
def readout (h : FArr F S100000x256) (w : FArr F S256x64) (b : FArr F S64) : FArr F S100000x64 :=
  addf (F := F) (product3 h w) (broadcastInDim S100000x64 ![0, 1] bcast_S1x64_S100000x64_0_1 (broadcastInDim S1x64 ![1] bcast_S64_S1x64_1 b))

/-- The whole network. -/
def network (x : FArr F S100000x128) (ei : IArr S2x600000) (ew : FArr F S600000) (w1 : FArr F S128x256)
    (b1 : FArr F S256) (w2 : FArr F S256x256) (b2 : FArr F S256) (wfc : FArr F S256x64) (bfc : FArr F S64) :
    FArr F S100000x64 :=
  readout (layer (product2 (layer (product1 x w1) (sources ei) (dests ei) (coefficients ei ew) b1) w2)
    (sources ei) (dests ei) (coefficients ei ew) b2) wfc bfc

end Cert.Gcn

end
-- ==== Proof.HostSteps.lean ====
/-
  The kernel program's host operations between its three matrix-product calls, read as the network's pieces.

  Before the first call the host builds, from the edge index array and the edge weights, the 700000 sources, the 700000
  destinations and the 700000 coefficients d(source) · weight · d(destination). After the first and after the second call it
  gathers the product's rows at the sources, scales them by the coefficients, sums them into the destination rows, adds the
  layer's bias and clamps at zero. Before the third call it reshapes the last bias to a 1 × 64 row. Each statement is about
  the buffer contents after a stretch of operations from ANY contents `V` before it: the operations' composed term is the
  network's piece by unfolding; a buffer no operation of the stretch writes keeps its contents. Nothing here depends on
  what a float is: the statements hold at every float instance.
-/
import proofs.«169531_j33397665693788_1_alg».proof.Proof.Gen.KernelIdeal.Launch
import proofs.«169531_j33397665693788_1_alg».proof.Proof.Spec
import Idealize.ShloMosaic.Lib.StableHlo.Run

set_option maxRecDepth 16384

noncomputable section

namespace Cert.KernelIdeal.HostSteps

open Cert.KernelIdeal Cert.KernelIdeal.Gen
open Idealize.ShloMosaic Idealize.ShloMosaic.TcCoe Idealize.ShloMosaic.StableHlo

/-- A buffer that no operation of a literal stretch writes keeps its contents. -/
macro "stretch_keeps" : tactic => `(tactic|
  (refine StableHlo.after_of_forall_not_mem _ _ (List.forall_iff_forall_mem.mp ?_)
   simp only [hostOps0, hostOps0_1, hostOps0_2, hostOps1, hostOps1_1, hostOps2, hostOps2_1, hostOps2_2, List.Forall,
     StableHlo.nullary_writes, StableHlo.unary_writes, StableHlo.binary_writes, StableHlo.ternary_writes,
     StableHlo.reshape_writes, Finset.mem_singleton]
   repeat' apply And.intro
   all_goals exact StableHlo.devRef_ne_of_ne (by decide)))

variable {F : FTy → Type} [FloatOps F] (V : Valuation τ sig (Elt F))

/-! ## Before the first call -/

/-- The contents after the three stretches before the first call. -/
abbrev prelude : Valuation τ sig (Elt F) := after hostOps0_2 (after hostOps0_1 (after hostOps0 V))

theorem prelude_sources : prelude V (Proc.devRef .tc main_v3) = Cert.Gcn.sources (V (Proc.devRef .tc main_arg1)) := by
  show after hostOps0_2 (after hostOps0_1 (after hostOps0 V)) (Proc.devRef .tc main_v3) = _
  simp only [hostOps0, hostOps0_1, hostOps0_2]
  after_results_simp
  rfl

theorem prelude_dests : prelude V (Proc.devRef .tc main_v6) = Cert.Gcn.dests (V (Proc.devRef .tc main_arg1)) := by
  show after hostOps0_2 (after hostOps0_1 (after hostOps0 V)) (Proc.devRef .tc main_v6) = _
  simp only [hostOps0, hostOps0_1, hostOps0_2]
  after_results_simp
  rfl

theorem prelude_coefficients : prelude V (Proc.devRef .tc main_v31)
    = Cert.Gcn.coefficients (F := F) (V (Proc.devRef .tc main_arg1)) (V (Proc.devRef .tc main_arg2)) := by
  show after hostOps0_2 (after hostOps0_1 (after hostOps0 V)) (Proc.devRef .tc main_v31) = _
  simp only [hostOps0, hostOps0_1, hostOps0_2]
  after_results_simp
  rfl

/-- The weights and biases are not written before the first call. -/
theorem prelude_keeps (r : Ref sig .tc)
    (hr : r = main_arg0 ∨ r = main_arg3 ∨ r = main_arg4 ∨ r = main_arg5 ∨ r = main_arg6 ∨ r = main_arg7 ∨ r = main_arg8) :
    prelude V (Proc.devRef .tc r) = V (Proc.devRef .tc r) := by
  rcases hr with rfl | rfl | rfl | rfl | rfl | rfl | rfl <;>
    exact Eq.trans (by stretch_keeps) (Eq.trans (by stretch_keeps) (by stretch_keeps))

/-! ## Between two calls: one layer -/

/-- The contents after the two stretches between the first and the second call. -/
abbrev afterFirst : Valuation τ sig (Elt F) := after hostOps1_1 (after hostOps1 V)

theorem afterFirst_layer : afterFirst V (Proc.devRef .tc main_v49)
    = Cert.Gcn.layer (F := F) (V (Proc.devRef .tc main_v32)) (V (Proc.devRef .tc main_v3)) (V (Proc.devRef .tc main_v6))
        (V (Proc.devRef .tc main_v31)) (V (Proc.devRef .tc main_arg4)) := by
  show after hostOps1_1 (after hostOps1 V) (Proc.devRef .tc main_v49) = _
  simp only [hostOps1, hostOps1_1]
  after_results_simp
  rfl

theorem afterFirst_keeps (r : Ref sig .tc)
    (hr : r = main_v3 ∨ r = main_v6 ∨ r = main_v31 ∨ r = main_arg5 ∨ r = main_arg6 ∨ r = main_arg7 ∨ r = main_arg8) :
    afterFirst V (Proc.devRef .tc r) = V (Proc.devRef .tc r) := by
  rcases hr with rfl | rfl | rfl | rfl | rfl | rfl | rfl <;>
    exact Eq.trans (by stretch_keeps) (by stretch_keeps)

/-- The contents after the three stretches between the second and the third call. -/
abbrev afterSecond : Valuation τ sig (Elt F) := after hostOps2_2 (after hostOps2_1 (after hostOps2 V))

theorem afterSecond_layer : afterSecond V (Proc.devRef .tc main_v67)
    = Cert.Gcn.layer (F := F) (V (Proc.devRef .tc main_v50)) (V (Proc.devRef .tc main_v3)) (V (Proc.devRef .tc main_v6))
        (V (Proc.devRef .tc main_v31)) (V (Proc.devRef .tc main_arg6)) := by
  show after hostOps2_2 (after hostOps2_1 (after hostOps2 V)) (Proc.devRef .tc main_v67) = _
  simp only [hostOps2, hostOps2_1, hostOps2_2]
  after_results_simp
  rfl

/-- The last bias as a 1 × 64 row. -/
theorem afterSecond_bias : afterSecond V (Proc.devRef .tc main_v68)
    = shapeCast S1x64 (V (Proc.devRef .tc main_arg8)) shapeCasts_S64_S1x64 := by
  show after hostOps2_2 (after hostOps2_1 (after hostOps2 V)) (Proc.devRef .tc main_v68) = _
  simp only [hostOps2, hostOps2_1, hostOps2_2]
  after_results_simp
  rfl

theorem afterSecond_keeps : afterSecond V (Proc.devRef .tc main_arg7) = V (Proc.devRef .tc main_arg7) :=
  Eq.trans (by stretch_keeps) (Eq.trans (by stretch_keeps) (by stretch_keeps))

end Cert.KernelIdeal.HostSteps

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelValue.lean ====
/-
  The kernel program's result is the network of its nine arguments.

  Walk the buffer contents from the launch to the return. Before the first call the host has the sources, the destinations
  and the coefficients; the first call leaves x · W1; the host's steps make the first layer of it; the second call leaves
  that times W2; the host's steps make the second layer; the third call leaves that times Wfc plus the bias along the
  columns. A call's product (a plain sum over k) is the host's dot_general read entry by entry, and the kernel's bias row
  [64] → [1, 64], repeated down the rows of a block, is the host's bias broadcast, so every stage is the network's stage.
  Buffers a stretch or a call does not write are carried along unchanged.
-/
import proofs.«169531_j33397665693788_1_alg».proof.Proof.Dense0
import proofs.«169531_j33397665693788_1_alg».proof.Proof.Dense1
import proofs.«169531_j33397665693788_1_alg».proof.Proof.Dense2
import proofs.«169531_j33397665693788_1_alg».proof.Proof.HostSteps
import proofs.«169531_j33397665693788_1_alg».proof.Proof.Spec
import proofs.«169531_j33397665693788_1_alg».proof.Proof.LibHostBroadcast
import proofs.«169531_j33397665693788_1_alg».proof.Proof.LibVectorAsMatrix
import proofs.«169531_j33397665693788_1_alg».proof.Proof.Gen.ReferenceIdeal.Read

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Cert.Gcn (FArr IArr)

/-! ## The host's products and bias, entry by entry -/

theorem product1_eq (x : FArr Ideal Cert.ReferenceIdeal.S100000x128) (w : FArr Ideal Cert.ReferenceIdeal.S128x256) :
    Cert.Gcn.product1 (F := Ideal) x w = Dense.mm (M := 100000) (K := 128) (N := 256) x w := by
  funext i
  unfold Cert.Gcn.product1 Dense.mm
  exact MatmulRows.dotGeneral_apply Cert.ReferenceIdeal.dot_S100000x128_S128x256_S100000x256_1_0_0_1_n_n none .single
    rfl rfl rfl rfl Cert.ReferenceIdeal.Read.lhs_main_v32_0 Cert.ReferenceIdeal.Read.rhs_main_v32_1 x w i

theorem product2_eq (x : FArr Ideal Cert.ReferenceIdeal.S100000x256) (w : FArr Ideal Cert.ReferenceIdeal.S256x256) :
    Cert.Gcn.product2 (F := Ideal) x w = Dense.mm (M := 100000) (K := 256) (N := 256) x w := by
  funext i
  unfold Cert.Gcn.product2 Dense.mm
  exact MatmulRows.dotGeneral_apply Cert.ReferenceIdeal.dot_S100000x256_S256x256_S100000x256_1_0_0_1_n_n none .single
    rfl rfl rfl rfl Cert.ReferenceIdeal.Read.lhs_main_v73_0 Cert.ReferenceIdeal.Read.rhs_main_v73_1 x w i

theorem product3_eq (x : FArr Ideal Cert.ReferenceIdeal.S100000x256) (w : FArr Ideal Cert.ReferenceIdeal.S256x64) :
    Cert.Gcn.product3 (F := Ideal) x w = Dense.mm (M := 100000) (K := 256) (N := 64) x w := by
  funext i
  unfold Cert.Gcn.product3 Dense.mm
  exact MatmulRows.dotGeneral_apply Cert.ReferenceIdeal.dot_S100000x256_S256x64_S100000x64_1_0_0_1_n_n none .single
    rfl rfl rfl rfl Cert.ReferenceIdeal.Read.lhs_main_v91_0 Cert.ReferenceIdeal.Read.rhs_main_v91_1 x w i

/-- The last stage entry by entry: the product's entry plus the bias at the column; the bias as the kernel holds it, a
    1 × 64 row, reads the same vector at the column. -/
theorem readout_eq (h : FArr Ideal Cert.ReferenceIdeal.S100000x256) (w : FArr Ideal Cert.ReferenceIdeal.S256x64)
    (b : FArr Ideal Cert.ReferenceIdeal.S64) :
    Cert.Gcn.readout (F := Ideal) h w b
      = fun i => Dense.mm (M := 100000) (K := 256) (N := 64) h w i
          + shapeCast S1x64 b shapeCasts_S64_S1x64 (ix2 (0 : Fin 1) (i 1)) := by
  funext i
  unfold Cert.Gcn.readout
  refine (addf_apply _ _ i).trans ?_
  rw [product3_eq]
  refine congrArg (Dense.mm (M := 100000) (K := 256) (N := 64) h w i + ·) ?_
  refine (HostBroadcast.bias_apply _ _ b i).trans ?_
  exact (VectorAsMatrix.row_apply b shapeCasts_S64_S1x64 (0 : Fin 1) (i 1)).symm

/-! ## The walk -/

variable (m : (ℓ : Loc nD τ sig) → Buf (Elt Ideal) ℓ) (ρ : Dev nD → PrngReg) (c : Dev nD)

/-- Before the first call: the sources, destinations and coefficients are built, the weights and biases untouched. -/
theorem at_first_call :
    W3 m ρ c (Proc.devRef .tc main_v3) = Cert.Gcn.sources (m ((c.tc : Thread nD τ).loc main_arg1)) ∧ W3 m ρ c (Proc.devRef .tc main_v6) = Cert.Gcn.dests (m ((c.tc : Thread nD τ).loc main_arg1))
    ∧ W3 m ρ c (Proc.devRef .tc main_v31) = Cert.Gcn.coefficients (F := Ideal) (m ((c.tc : Thread nD τ).loc main_arg1)) (m ((c.tc : Thread nD τ).loc main_arg2))
    ∧ W3 m ρ c (Proc.devRef .tc main_arg0) = (m ((c.tc : Thread nD τ).loc main_arg0)) ∧ W3 m ρ c (Proc.devRef .tc main_arg3) = (m ((c.tc : Thread nD τ).loc main_arg3)) ∧ W3 m ρ c (Proc.devRef .tc main_arg4) = (m ((c.tc : Thread nD τ).loc main_arg4))
    ∧ W3 m ρ c (Proc.devRef .tc main_arg5) = (m ((c.tc : Thread nD τ).loc main_arg5)) ∧ W3 m ρ c (Proc.devRef .tc main_arg6) = (m ((c.tc : Thread nD τ).loc main_arg6)) ∧ W3 m ρ c (Proc.devRef .tc main_arg7) = (m ((c.tc : Thread nD τ).loc main_arg7))
    ∧ W3 m ρ c (Proc.devRef .tc main_arg8) = (m ((c.tc : Thread nD τ).loc main_arg8)) :=
  ⟨HostSteps.prelude_sources (F := Ideal) (W0 m ρ c), HostSteps.prelude_dests (F := Ideal) (W0 m ρ c), HostSteps.prelude_coefficients (F := Ideal) (W0 m ρ c),
    HostSteps.prelude_keeps (F := Ideal) (W0 m ρ c) main_arg0 (by simp), HostSteps.prelude_keeps (F := Ideal) (W0 m ρ c) main_arg3 (by simp),
    HostSteps.prelude_keeps (F := Ideal) (W0 m ρ c) main_arg4 (by simp), HostSteps.prelude_keeps (F := Ideal) (W0 m ρ c) main_arg5 (by simp),
    HostSteps.prelude_keeps (F := Ideal) (W0 m ρ c) main_arg6 (by simp), HostSteps.prelude_keeps (F := Ideal) (W0 m ρ c) main_arg7 (by simp),
    HostSteps.prelude_keeps (F := Ideal) (W0 m ρ c) main_arg8 (by simp)⟩

/-- After the first call: its result is x · W1. -/
theorem after_first_call :
    W4 m ρ c (Proc.devRef .tc main_v32) = Cert.Gcn.product1 (F := Ideal) (m ((c.tc : Thread nD τ).loc main_arg0)) (m ((c.tc : Thread nD τ).loc main_arg3))
    ∧ W4 m ρ c (Proc.devRef .tc main_v3) = Cert.Gcn.sources (m ((c.tc : Thread nD τ).loc main_arg1)) ∧ W4 m ρ c (Proc.devRef .tc main_v6) = Cert.Gcn.dests (m ((c.tc : Thread nD τ).loc main_arg1))
    ∧ W4 m ρ c (Proc.devRef .tc main_v31) = Cert.Gcn.coefficients (F := Ideal) (m ((c.tc : Thread nD τ).loc main_arg1)) (m ((c.tc : Thread nD τ).loc main_arg2))
    ∧ W4 m ρ c (Proc.devRef .tc main_arg4) = (m ((c.tc : Thread nD τ).loc main_arg4))
    ∧ W4 m ρ c (Proc.devRef .tc main_arg5) = (m ((c.tc : Thread nD τ).loc main_arg5)) ∧ W4 m ρ c (Proc.devRef .tc main_arg6) = (m ((c.tc : Thread nD τ).loc main_arg6)) ∧ W4 m ρ c (Proc.devRef .tc main_arg7) = (m ((c.tc : Thread nD τ).loc main_arg7))
    ∧ W4 m ρ c (Proc.devRef .tc main_arg8) = (m ((c.tc : Thread nD τ).loc main_arg8)) := by
  obtain ⟨s, d, k, a0, a3, a4, a5, a6, a7, a8⟩ := at_first_call m ρ c
  refine ⟨?_, (W4_of_ne m ρ c main_v3 (by decide)).trans s, (W4_of_ne m ρ c main_v6 (by decide)).trans d,
    (W4_of_ne m ρ c main_v31 (by decide)).trans k, (W4_of_ne m ρ c main_arg4 (by decide)).trans a4,
    (W4_of_ne m ρ c main_arg5 (by decide)).trans a5, (W4_of_ne m ρ c main_arg6 (by decide)).trans a6,
    (W4_of_ne m ρ c main_arg7 (by decide)).trans a7, (W4_of_ne m ρ c main_arg8 (by decide)).trans a8⟩
  rw [product1_eq, ← a0, ← a3]
  exact (W4_arr m ρ c 2).trans (Dense.product0 (V3 m ρ) c)

/-- Before the second call: the first layer. -/
theorem at_second_call :
    W6 m ρ c (Proc.devRef .tc main_v49) = Cert.Gcn.layer (F := Ideal) (Cert.Gcn.product1 (F := Ideal) (m ((c.tc : Thread nD τ).loc main_arg0)) (m ((c.tc : Thread nD τ).loc main_arg3))) (Cert.Gcn.sources (m ((c.tc : Thread nD τ).loc main_arg1)))
        (Cert.Gcn.dests (m ((c.tc : Thread nD τ).loc main_arg1))) (Cert.Gcn.coefficients (F := Ideal) (m ((c.tc : Thread nD τ).loc main_arg1)) (m ((c.tc : Thread nD τ).loc main_arg2))) (m ((c.tc : Thread nD τ).loc main_arg4))
    ∧ W6 m ρ c (Proc.devRef .tc main_v3) = Cert.Gcn.sources (m ((c.tc : Thread nD τ).loc main_arg1)) ∧ W6 m ρ c (Proc.devRef .tc main_v6) = Cert.Gcn.dests (m ((c.tc : Thread nD τ).loc main_arg1))
    ∧ W6 m ρ c (Proc.devRef .tc main_v31) = Cert.Gcn.coefficients (F := Ideal) (m ((c.tc : Thread nD τ).loc main_arg1)) (m ((c.tc : Thread nD τ).loc main_arg2))
    ∧ W6 m ρ c (Proc.devRef .tc main_arg5) = (m ((c.tc : Thread nD τ).loc main_arg5)) ∧ W6 m ρ c (Proc.devRef .tc main_arg6) = (m ((c.tc : Thread nD τ).loc main_arg6)) ∧ W6 m ρ c (Proc.devRef .tc main_arg7) = (m ((c.tc : Thread nD τ).loc main_arg7))
    ∧ W6 m ρ c (Proc.devRef .tc main_arg8) = (m ((c.tc : Thread nD τ).loc main_arg8)) := by
  obtain ⟨p, s, d, k, a4, a5, a6, a7, a8⟩ := after_first_call m ρ c
  refine ⟨?_, (HostSteps.afterFirst_keeps (F := Ideal) (W4 m ρ c) main_v3 (by simp)).trans s,
    (HostSteps.afterFirst_keeps (F := Ideal) (W4 m ρ c) main_v6 (by simp)).trans d,
    (HostSteps.afterFirst_keeps (F := Ideal) (W4 m ρ c) main_v31 (by simp)).trans k,
    (HostSteps.afterFirst_keeps (F := Ideal) (W4 m ρ c) main_arg5 (by simp)).trans a5,
    (HostSteps.afterFirst_keeps (F := Ideal) (W4 m ρ c) main_arg6 (by simp)).trans a6,
    (HostSteps.afterFirst_keeps (F := Ideal) (W4 m ρ c) main_arg7 (by simp)).trans a7,
    (HostSteps.afterFirst_keeps (F := Ideal) (W4 m ρ c) main_arg8 (by simp)).trans a8⟩
  rw [← p, ← s, ← d, ← k, ← a4]
  exact HostSteps.afterFirst_layer (F := Ideal) (W4 m ρ c)

/-- The first layer's output, named. -/
abbrev hidden1 : FArr Ideal Cert.ReferenceIdeal.S100000x256 :=
  Cert.Gcn.layer (F := Ideal) (Cert.Gcn.product1 (F := Ideal) (m ((c.tc : Thread nD τ).loc main_arg0)) (m ((c.tc : Thread nD τ).loc main_arg3))) (Cert.Gcn.sources (m ((c.tc : Thread nD τ).loc main_arg1)))
    (Cert.Gcn.dests (m ((c.tc : Thread nD τ).loc main_arg1))) (Cert.Gcn.coefficients (F := Ideal) (m ((c.tc : Thread nD τ).loc main_arg1)) (m ((c.tc : Thread nD τ).loc main_arg2))) (m ((c.tc : Thread nD τ).loc main_arg4))

/-- After the second call: its result is the first layer times W2. -/
theorem after_second_call :
    W7 m ρ c (Proc.devRef .tc main_v50) = Cert.Gcn.product2 (F := Ideal) (hidden1 m c) (m ((c.tc : Thread nD τ).loc main_arg5))
    ∧ W7 m ρ c (Proc.devRef .tc main_v3) = Cert.Gcn.sources (m ((c.tc : Thread nD τ).loc main_arg1)) ∧ W7 m ρ c (Proc.devRef .tc main_v6) = Cert.Gcn.dests (m ((c.tc : Thread nD τ).loc main_arg1))
    ∧ W7 m ρ c (Proc.devRef .tc main_v31) = Cert.Gcn.coefficients (F := Ideal) (m ((c.tc : Thread nD τ).loc main_arg1)) (m ((c.tc : Thread nD τ).loc main_arg2))
    ∧ W7 m ρ c (Proc.devRef .tc main_arg6) = (m ((c.tc : Thread nD τ).loc main_arg6)) ∧ W7 m ρ c (Proc.devRef .tc main_arg7) = (m ((c.tc : Thread nD τ).loc main_arg7)) ∧ W7 m ρ c (Proc.devRef .tc main_arg8) = (m ((c.tc : Thread nD τ).loc main_arg8)) := by
  obtain ⟨h, s, d, k, a5, a6, a7, a8⟩ := at_second_call m ρ c
  refine ⟨?_, (W7_of_ne m ρ c main_v3 (by decide)).trans s, (W7_of_ne m ρ c main_v6 (by decide)).trans d,
    (W7_of_ne m ρ c main_v31 (by decide)).trans k, (W7_of_ne m ρ c main_arg6 (by decide)).trans a6,
    (W7_of_ne m ρ c main_arg7 (by decide)).trans a7, (W7_of_ne m ρ c main_arg8 (by decide)).trans a8⟩
  rw [product2_eq]
  unfold hidden1
  rw [← h, ← a5]
  exact (W7_arr m ρ c 2).trans (Dense.product1 (V6 m ρ) c)

/-- The second layer's output, named. -/
abbrev hidden2 : FArr Ideal Cert.ReferenceIdeal.S100000x256 :=
  Cert.Gcn.layer (F := Ideal) (Cert.Gcn.product2 (F := Ideal) (hidden1 m c) (m ((c.tc : Thread nD τ).loc main_arg5))) (Cert.Gcn.sources (m ((c.tc : Thread nD τ).loc main_arg1)))
    (Cert.Gcn.dests (m ((c.tc : Thread nD τ).loc main_arg1))) (Cert.Gcn.coefficients (F := Ideal) (m ((c.tc : Thread nD τ).loc main_arg1)) (m ((c.tc : Thread nD τ).loc main_arg2))) (m ((c.tc : Thread nD τ).loc main_arg6))

/-- Before the third call: the second layer, and the last bias as a 1 × 64 row. -/
theorem at_third_call :
    W10 m ρ c (Proc.devRef .tc main_v67) = hidden2 m c
    ∧ W10 m ρ c (Proc.devRef .tc main_v68) = shapeCast S1x64 (m ((c.tc : Thread nD τ).loc main_arg8)) shapeCasts_S64_S1x64
    ∧ W10 m ρ c (Proc.devRef .tc main_arg7) = (m ((c.tc : Thread nD τ).loc main_arg7)) := by
  obtain ⟨p, s, d, k, a6, a7, a8⟩ := after_second_call m ρ c
  refine ⟨?_, ?_, (HostSteps.afterSecond_keeps (F := Ideal) (W7 m ρ c)).trans a7⟩
  · unfold hidden2
    rw [← p, ← s, ← d, ← k, ← a6]
    exact HostSteps.afterSecond_layer (F := Ideal) (W7 m ρ c)
  · rw [← a8]
    exact HostSteps.afterSecond_bias (F := Ideal) (W7 m ρ c)

/-- THE RESULT: the result buffer at the last boundary holds the network of the nine arguments. -/
theorem result_eq :
    W11 m ρ c (Proc.devRef .tc main_v69) = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := by
  obtain ⟨h, b, a7⟩ := at_third_call m ρ c
  show _ = Cert.Gcn.readout (F := Ideal) (hidden2 m c) (m ((c.tc : Thread nD τ).loc main_arg7)) (m ((c.tc : Thread nD τ).loc main_arg8))
  rw [readout_eq, ← h, ← a7, ← b]
  exact (W11_arr m ρ c 3).trans (Dense.product2 (V10 m ρ) c)

end Cert.KernelIdeal.Whole

end
-- ==== Proof.RefValue.lean ====
/-
  The reference program's result is the network of its nine arguments: its run's composed term, unfolded, is the
  network's definition, piece for piece.
-/
import proofs.«169531_j33397665693788_1_alg».proof.Proof.Gen.ReferenceIdeal.Run
import proofs.«169531_j33397665693788_1_alg».proof.Proof.Spec

set_option maxRecDepth 16384

noncomputable section

namespace Cert.Gcn

open Idealize.ShloMosaic Idealize.ShloMosaic.TcCoe Cert.ReferenceIdeal Cert.ReferenceIdeal.Gen

theorem reference_eq (m : (ℓ : Loc nD τ sig) → Buf (Elt Ideal) ℓ) (c : Dev nD) :
    Cert.ReferenceIdeal.Value.res_main_v94 (F := Ideal) m c
      = network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v94 network readout product3 product2 product1 layer coefficients atNodes
    invSqrtDegree degree wrapIndex weights sources dests
  rfl

end Cert.Gcn

end
-- ==== Proof.lean ====
/-
  A three-layer graph network: x · W1, a normalised neighbourhood sum with bias and relu, · W2, the same again, · Wfc + bfc.
  The kernel program computes the three matrix products in pipelined calls over 20 row blocks (operands rounded to bf16
  on the way into the multiplier, which is the identity on the extended reals) and everything else with host operations;
  the reference computes everything with host operations, recomputing the normalisation coefficients for the second layer
  where the kernel program reuses them.

  On the extended reals both results are ONE function of the nine arguments, `Cert.Gcn.network`: the reference's composed
  term unfolds to it (the recomputed coefficients are the same term), and the kernel program's buffer contents, walked
  from the launch through each stretch of host operations and each call, arrive at it — a call's result array is the
  product Σ_k a(i, k) · b(k, j) of its whole operands, which is the host's product entry by entry. No law beyond
  reindexing a sum is used, so the finiteness of the inputs is never opened. Nothing was rewritten in the idealized kernel
  program, so it is its own idealization.
-/
import proofs.«169531_j33397665693788_1_alg».proof.Defs
import proofs.«169531_j33397665693788_1_alg».proof.Proof.Gen.Kernel
import proofs.«169531_j33397665693788_1_alg».proof.Proof.Gen.Kernel.Frame
import proofs.«169531_j33397665693788_1_alg».proof.Proof.Gen.KernelIdeal
import proofs.«169531_j33397665693788_1_alg».proof.Proof.Gen.KernelIdeal.Frame
import proofs.«169531_j33397665693788_1_alg».proof.Proof.Gen.ReferenceIdeal
import proofs.«169531_j33397665693788_1_alg».proof.Proof.Gen.Pre_finite_inputs
import proofs.«169531_j33397665693788_1_alg».proof.Proof.Gen.ReferenceIdeal.Run
import proofs.«169531_j33397665693788_1_alg».proof.Proof.KernelRun
import proofs.«169531_j33397665693788_1_alg».proof.Proof.KernelValue
import proofs.«169531_j33397665693788_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Whole.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.Gcn.reference_eq, a0, a1, a2, a3, a4, a5, a6, a7, a8]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
